-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1 .f32) (main_arg5 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S65536x1024 .f32) (main_arg1 : FVec F S1024 .f32) (main_arg2 : FVec F S1024x1024 .f32) (main_arg3 : FVec F S1024 .f32) (main_arg4 : FVec F S1 .f32) (main_arg5 : FVec F S1x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩
abbrev S1024x1 : Shape := ⟨2, ![1024, 1]⟩
abbrev S1x1 : Shape := ⟨2, ![1, 1]⟩

abbrev nBuf : Space → Nat
  | .hbm => 31
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S1, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1x1, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  shapeCasts_S1024_S1x1024 : S1024.ShapeCasts S1x1024
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S1, .f32⟩
  | .hbm, ⟨5, _⟩ => ⟨S1x1024, .f32⟩
  | .hbm, ⟨6, _⟩ => ⟨S1024x1024, .f32⟩
  | .hbm, ⟨7, _⟩ => ⟨S65536x1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1024x1024, .f32⟩
  | .hbm, ⟨25, _⟩ => ⟨S65536x1024, .f32⟩
  | .hbm, ⟨26, _⟩ => ⟨S1x1, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S_, .f32⟩
  | .hbm, ⟨39, _⟩ => ⟨S65536x1024, .f32⟩
  | .hbm, ⟨40, _⟩ => ⟨S65536x1024, .i1⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)
  bcast_S_S65536x1024 : S_.BroadcastsInDim S65536x1024 (![] : Fin 0 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  A modulated linear layer after a plain one, as functions of the six argument arrays, entry by entry, on the
  extended reals.

  The arrays: x (65536 × 1024), the style vector w (1024), the weight W (1024 × 1024, rows = outputs), the bias b
  (1024), the noise strength ns (one entry) and the raw noise nr (1 × 1024).

    dense  n j = Σₖ x[n,k] · W[j,k] + b[j]                         the plain layer
    demod  o   = rsqrt (0 + Σⱼ (W[o,j] · w[j])² + ε)               the demodulation coefficient of output o
    noise  o   = nr[0,o] · ns[0]
    leaky  y   = y if y ≥ 0, else slope · y

  Two arrangements of the second layer:

    modulate the INPUT, then scale the output:   leaky ((Σⱼ (dense n j · w[j]) · W[o,j]) · demod o + noise o + b[o])
    fold everything into the WEIGHT:             leaky (Σⱼ dense n j · ((demod o · W[o,j]) · w[j]) + (noise o + b[o]))

  They agree because demod o is a non-negative real (ε > 0 and a sum of squares is never negative, so the argument
  of rsqrt is positive, possibly +∞ where rsqrt is 0): a non-negative finite factor moves across a finite sum on
  the extended reals whatever the terms are, and products and sums there are commutative and associative.
-/
import Idealize.ShloMosaic.Lib.ValueIdx
import Idealize.ShloMosaic.PureOps.Ideal.Laws

noncomputable section

open scoped BigOperators

namespace ModLinear

open Idealize.ShloMosaic Idealize.ShloMosaic.ValueIdx

/-- The array shapes, as literals. -/
abbrev SX : Shape := ⟨2, ![65536, 1024]⟩
abbrev SW : Shape := ⟨2, ![1024, 1024]⟩
abbrev SV : Shape := ⟨1, ![1024]⟩
abbrev SN : Shape := ⟨2, ![1, 1024]⟩
abbrev S1 : Shape := ⟨1, ![1]⟩

/-- ε, the float32 nearest to 1e-8, as the extended real its pattern denotes. -/
def eps : EReal := Ideal.ofBits .f32 0x322BCC77#32
/-- The negative slope, the float32 nearest to 0.01. -/
def slope : EReal := Ideal.ofBits .f32 0x3C23D70A#32
/-- The float32 zero pattern (it denotes 0). -/
def zero32 : EReal := Ideal.ofBits .f32 0x00000000#32

/-- y where y ≥ 0, slope · y elsewhere. -/
def leaky (y : EReal) : EReal := Scalar.select (Ideal.cmp .oge y zero32) y (slope * y)

/-- The plain layer: row n of x against row j of W, plus the bias. -/
def dense (x : SX.Idx → EReal) (W : SW.Idx → EReal) (b : SV.Idx → EReal) (n : Fin 65536) (j : Fin 1024) : EReal :=
  (∑ k : Fin 1024, x (ix2 n k) * W (ix2 j k)) + b (ix1 j)

/-- The sum of squares of row o of W modulated by w, from the zero pattern. -/
def sumsq (W : SW.Idx → EReal) (w : SV.Idx → EReal) (o : Fin 1024) : EReal :=
  zero32 + ∑ j : Fin 1024, (W (ix2 o j) * w (ix1 j)) * (W (ix2 o j) * w (ix1 j))

/-- The demodulation coefficient of output o. -/
def demod (W : SW.Idx → EReal) (w : SV.Idx → EReal) (o : Fin 1024) : EReal :=
  Ideal.rsqrt (sumsq W w o + eps)

/-- The scaled noise at output o. -/
def noise (ns : S1.Idx → EReal) (nr : SN.Idx → EReal) (o : Fin 1024) : EReal :=
  nr (ix2 (0 : Fin 1) o) * ns (ix1 (0 : Fin 1))

/-- The second layer with the input modulated and the output scaled, at entry (n, o). -/
def scaledAt (x : SX.Idx → EReal) (w : SV.Idx → EReal) (W : SW.Idx → EReal) (b : SV.Idx → EReal)
    (ns : S1.Idx → EReal) (nr : SN.Idx → EReal) (n : Fin 65536) (o : Fin 1024) : EReal :=
  leaky ((((∑ j : Fin 1024, (dense x W b n j * w (ix1 j)) * W (ix2 o j)) * demod W w o) + noise ns nr o) + b (ix1 o))

/-- The second layer with modulation and scale folded into the weight, at entry (n, o). -/
def foldedAt (x : SX.Idx → EReal) (w : SV.Idx → EReal) (W : SW.Idx → EReal) (b : SV.Idx → EReal)
    (ns : S1.Idx → EReal) (nr : SN.Idx → EReal) (n : Fin 65536) (o : Fin 1024) : EReal :=
  leaky ((∑ j : Fin 1024, dense x W b n j * ((demod W w o * W (ix2 o j)) * w (ix1 j))) + (noise ns nr o + b (ix1 o)))

/-- The whole output array, input-modulated arrangement. -/
def scaled (x : SX.Idx → EReal) (w : SV.Idx → EReal) (W : SW.Idx → EReal) (b : SV.Idx → EReal)
    (ns : S1.Idx → EReal) (nr : SN.Idx → EReal) : SX.Idx → EReal :=
  fun i => scaledAt x w W b ns nr (i 0) (i 1)

/-- The whole output array, weight-folded arrangement. -/
def folded (x : SX.Idx → EReal) (w : SV.Idx → EReal) (W : SW.Idx → EReal) (b : SV.Idx → EReal)
    (ns : S1.Idx → EReal) (nr : SN.Idx → EReal) : SX.Idx → EReal :=
  fun i => foldedAt x w W b ns nr (i 0) (i 1)

theorem scaled_ix2 (x : SX.Idx → EReal) (w : SV.Idx → EReal) (W : SW.Idx → EReal) (b : SV.Idx → EReal)
    (ns : S1.Idx → EReal) (nr : SN.Idx → EReal) (n : Fin 65536) (o : Fin 1024) :
    scaled x w W b ns nr (ix2 n o) = scaledAt x w W b ns nr n o := rfl

theorem folded_ix2 (x : SX.Idx → EReal) (w : SV.Idx → EReal) (W : SW.Idx → EReal) (b : SV.Idx → EReal)
    (ns : S1.Idx → EReal) (nr : SN.Idx → EReal) (n : Fin 65536) (o : Fin 1024) :
    folded x w W b ns nr (ix2 n o) = foldedAt x w W b ns nr n o := rfl

end ModLinear

end
-- ==== Proof.Law.lean ====
/-
  The two arrangements of the modulated layer agree, entry by entry, on the extended reals.

  ε is a positive real and a sum of squares is never negative (on the extended reals a square is ≥ 0, (±∞)² = +∞), so
  the argument of the reciprocal square root is positive: the coefficient demod o is then a non-negative REAL
  (0 at +∞).  A non-negative real factor distributes over a finite sum of arbitrary extended reals, so

      Σⱼ dense·((demod·W)·w) = Σⱼ ((dense·w)·W)·demod = (Σⱼ (dense·w)·W)·demod,

  and the two trailing additions differ only by associativity.
-/
import proofs.«172811_j9766755631183_2_alg».proof.Proof.Spec

noncomputable section

open scoped BigOperators

namespace ModLinear

open Idealize.ShloMosaic Idealize.ShloMosaic.ValueIdx

theorem zero32_eq : zero32 = 0 := Ideal.ofBits_zero_f32

/-- ε is a positive real. -/
theorem eps_pos_real : ∃ r : ℝ, 0 < r ∧ eps = (r : EReal) := by
  refine ⟨(11258999 : ℝ) * (2 : ℝ) ^ (-50 : Int), by positivity, ?_⟩
  unfold eps
  simp [Ideal.ofBits, Ideal.ieee, -EReal.coe_mul]

/-- A square is never negative on the extended reals. -/
theorem mul_self_nonneg' (a : EReal) : 0 ≤ a * a := by
  induction a using EReal.rec with
  | bot => rw [EReal.bot_mul_bot]; exact le_top
  | top => rw [EReal.top_mul_top]; exact le_top
  | coe r => rw [← EReal.coe_mul]; exact_mod_cast mul_self_nonneg r

theorem sumsq_nonneg (W : SW.Idx → EReal) (w : SV.Idx → EReal) (o : Fin 1024) : 0 ≤ sumsq W w o := by
  unfold sumsq
  rw [zero32_eq, zero_add]
  exact Finset.sum_nonneg fun j _ => mul_self_nonneg' _

/-- The demodulation coefficient is a non-negative real. -/
theorem demod_nonneg_ne_top (W : SW.Idx → EReal) (w : SV.Idx → EReal) (o : Fin 1024) :
    0 ≤ demod W w o ∧ demod W w o ≠ ⊤ := by
  obtain ⟨r, hr, he⟩ := eps_pos_real
  have hs := sumsq_nonneg W w o
  have hpos : 0 < sumsq W w o + eps := by
    rw [he]
    exact lt_of_lt_of_le (by exact_mod_cast hr) (le_add_of_nonneg_left hs)
  unfold demod
  generalize sumsq W w o + eps = y at hpos
  induction y using EReal.rec with
  | bot => exact absurd hpos (by simp)
  | top => rw [Ideal.rsqrt_top]; exact ⟨le_refl _, EReal.zero_ne_top⟩
  | coe q =>
    have hq : 0 < q := by exact_mod_cast hpos
    rw [Ideal.rsqrt_coe, if_neg (not_lt.mpr hq.le), if_neg hq.ne']
    exact ⟨by exact_mod_cast inv_nonneg.mpr (Real.sqrt_nonneg q), EReal.coe_ne_top _⟩

/-- A non-negative real factor moves across a finite sum, whatever the terms. -/
theorem sum_mul_nonneg_real {ι : Type} (s : Finset ι) (f : ι → EReal) (d : EReal) (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- The weight-folded arrangement is the input-modulated one. -/
theorem foldedAt_eq_scaledAt (x : SX.Idx → EReal) (w : SV.Idx → EReal) (W : SW.Idx → EReal) (b : SV.Idx → EReal)
    (ns : S1.Idx → EReal) (nr : SN.Idx → EReal) (n : Fin 65536) (o : Fin 1024) :
    foldedAt x w W b ns nr n o = scaledAt x w W b ns nr n o := by
  unfold foldedAt scaledAt
  refine congrArg leaky ?_
  obtain ⟨h0, ht⟩ := demod_nonneg_ne_top W w o
  rw [sum_mul_nonneg_real _ _ _ h0 ht, add_assoc]
  refine congrArg (· + _) (Finset.sum_congr rfl fun j _ => ?_)
  ac_rfl

theorem folded_eq_scaled (x : SX.Idx → EReal) (w : SV.Idx → EReal) (W : SW.Idx → EReal) (b : SV.Idx → EReal)
    (ns : S1.Idx → EReal) (nr : SN.Idx → EReal) : folded x w W b ns nr = scaled x w W b ns nr :=
  funext fun i => foldedAt_eq_scaledAt x w W b ns nr (i 0) (i 1)

end ModLinear

end
-- ==== Proof.LibMatmulRows.lean ====
/-
  A matrix product that contracts the LAST axis of both operands (rows of the left against rows of the right, x·Wᵀ),
  accumulated into the zero matrix and read at one entry at the ideal values: the sum over the contracted coordinate
  of the products of the two operands' entries, Σ_c A[a,c]·B[b,c].
-/
import Idealize.ShloMosaic.PureOps.Ideal.Laws
import Idealize.ShloMosaic.Lib.ValueIdx

noncomputable section

open scoped BigOperators

namespace MatmulRows

open Idealize.ShloMosaic Idealize.ShloMosaic.ValueIdx

/-- The dimension numbers of x·Wᵀ: both operands contract axis 1, each keeps axis 0, no batch axis. -/
abbrev rowsDims (m k n : Nat)
    (wf : DotDims.WF (⟨2, ![m, k]⟩ : Shape) ⟨2, ![n, k]⟩ ⟨2, ![m, n]⟩ [1] [1] [0] [0] [] []) :
    DotDims (⟨2, ![m, k]⟩ : Shape) ⟨2, ![n, k]⟩ ⟨2, ![m, n]⟩ where
  lhsContracting := [1]
  rhsContracting := [1]
  lhsNonContracting := [0]
  rhsNonContracting := [0]
  lhsBatch := []
  rhsBatch := []
  wf := wf

/-- x·Wᵀ into the zero accumulator at entry (a, b) is Σ_c A[a,c]·B[b,c]. -/
theorem matmul_rows_zero_apply {m k n : Nat} {φ₁ φ₂ : FTy}
    (wf : DotDims.WF (⟨2, ![m, k]⟩ : Shape) ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (F := Ideal) (rowsDims m k n wf) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (rowsDims m k n wf) k rfl rfl).symm]
  refine Finset.sum_congr rfl fun c _ => ?_
  have hc := contrEquiv1_symm_val (rowsDims m k n wf) k rfl rfl c
  have hl : (rowsDims m k n wf).lhsIdx (ix2 a b) ((contrEquiv1 _ k rfl rfl).symm c) = ix2 a c := by
    funext ax; apply Fin.ext
    match ax with
    | ⟨0, _⟩ => simp [DotDims.lhsIdx, rowsDims]; rfl
    | ⟨1, _⟩ => simp [DotDims.lhsIdx, rowsDims]; exact hc
  have hr : (rowsDims m k n wf).rhsIdx (ix2 a b) ((contrEquiv1 _ k rfl rfl).symm c) = ix2 b c := by
    funext ax; apply Fin.ext
    match ax with
    | ⟨0, _⟩ => simp [DotDims.rhsIdx, rowsDims]; rfl
    | ⟨1, _⟩ => simp [DotDims.rhsIdx, rowsDims]; exact hc
  rw [hl, hr]

end MatmulRows

end
-- ==== Proof.KernelEntry.lean ====
/-
  What the kernel body stores, read at one entry of the block.

  The body takes a block of 1024 rows of x (x0), the two resident weights (x1 = W, x2 = the folded weight), the bias
  row (x3) and the noise-plus-bias row (x4), and stores, at entry (p, q),

      leaky (Σⱼ (Σₖ x0[p,k]·x1[j,k] + x3[0,j]) · x2[q,j] + x4[0,q]) :

  two products that contract the last axis of both operands into zero accumulators, a row added to every row of each,
  and the leaky rectifier as a comparison with zero and a choice.  Changes of float format are the identity at the
  ideal values, and a reshape to the same shape is the identity.
-/
import proofs.«172811_j9766755631183_2_alg».proof.Proof.Gen.KernelIdeal.Skeleton
import proofs.«172811_j9766755631183_2_alg».proof.Proof.Spec
import proofs.«172811_j9766755631183_2_alg».proof.Proof.LibMatmulRows
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx ModLinear MatmulRows

/-- The body's product into zero at an entry. -/
theorem prod_apply (a bm : FVec Ideal S1024x1024 .bf16) (p q : Fin 1024) :
    matmul (F := Ideal) dot_S1024x1024_S1024x1024_S1024x1024_1_1_0_0_n_n none a bm
        (constant (F := Ideal) S1024x1024 .f32 0x00000000#32) (ix2 p q)
      = ∑ j : Fin 1024, a (ix2 p j) * bm (ix2 q j) :=
  matmul_rows_zero_apply _ none a bm p q

/-- The stored value at entry (p, q). -/
theorem pay_apply (x0 : FVec Ideal S1024x1024 .f32) (x1 x2 : FVec Ideal S1024x1024 .bf16) (x3 x4 : FVec Ideal S1x1024 .f32)
    (p q : Fin 1024) :
    k0_pay1 (F := Ideal) x0 x1 x2 x3 x4 (ix2 p q)
      = leaky ((∑ j : Fin 1024, ((∑ k : Fin 1024, x0 (ix2 p k) * x1 (ix2 j k)) + x3 (ix2 (0 : Fin 1) j)) * x2 (ix2 q j))
          + x4 (ix2 (0 : Fin 1) q)) := by
  unfold k0_pay1
  show leaky (matmul (F := Ideal) dot_S1024x1024_S1024x1024_S1024x1024_1_1_0_0_n_n none _ _ _ (ix2 p q)
      + broadcastTo S1024x1024 (shapeCast S1x1024 x4 shapeCasts_S1x1024_S1x1024) broadcasts_S1x1024_S1024x1024 (ix2 p q)) = _
  rw [prod_apply, broadcastTo_1b_ab_apply, shapeCast_self]
  refine congrArg leaky (congrArg₂ (· + ·) (Finset.sum_congr rfl fun j _ => ?_) (congrFun (shapeCast_self x4 _) _))
  show (matmul (F := Ideal) dot_S1024x1024_S1024x1024_S1024x1024_1_1_0_0_n_n none _ _ _ (ix2 p j)
      + broadcastTo S1024x1024 (shapeCast S1x1024 x3 shapeCasts_S1x1024_S1x1024) broadcasts_S1x1024_S1024x1024 (ix2 p j))
      * shapeCast S1024x1024 x2 shapeCasts_S1024x1024_S1024x1024 (ix2 q j) = _
  rw [prod_apply, broadcastTo_1b_ab_apply]
  simp only [shapeCast_self]
  rfl

/-- The stored value at entry (p, q) when the blocks hold row r of x, the weight, row q of the folded weight, the bias
    row and the noise-plus-bias row: the weight-folded arrangement at entry (r, q). -/
theorem block_value (X : SX.Idx → EReal) (w : SV.Idx → EReal) (W : SW.Idx → EReal) (b : SV.Idx → EReal)
    (ns : ModLinear.S1.Idx → EReal) (nr : SN.Idx → EReal)
    (x0 : FVec Ideal S1024x1024 .f32) (x1 x2 : FVec Ideal S1024x1024 .bf16) (x3 x4 : FVec Ideal S1x1024 .f32)
    (r : Fin 65536) (p q : Fin 1024)
    (h0 : ∀ k : Fin 1024, x0 (ix2 p k) = X (ix2 r k))
    (h1 : ∀ j k : Fin 1024, x1 (ix2 j k) = W (ix2 j k))
    (h2 : ∀ j : Fin 1024, x2 (ix2 q j) = (demod W w q * W (ix2 q j)) * w (ix1 j))
    (h3 : ∀ j : Fin 1024, x3 (ix2 (0 : Fin 1) j) = b (ix1 j))
    (h4 : x4 (ix2 (0 : Fin 1) q) = noise ns nr q + b (ix1 q)) :
    k0_pay1 (F := Ideal) x0 x1 x2 x3 x4 (ix2 p q) = foldedAt X w W b ns nr r q := by
  rw [pay_apply, h4]
  unfold foldedAt dense
  refine congrArg leaky (congrArg (· + _) (Finset.sum_congr rfl fun j _ => ?_))
  rw [h2 j, h3 j]
  refine congrArg (fun s => (s + b (ix1 j)) * _) (Finset.sum_congr rfl fun k _ => ?_)
  rw [h0 k, h1 j k]

end Cert.KernelIdeal.Entry

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.LibHostReads.lean ====
/-
  Two more host operations on the extended reals, read at an entry, at arbitrary sizes.

  The host's division is, entry by entry, the division of the extended reals.  The host's sum of an m × q array along
  its rows, from an initial value, has at row e the initial value plus the sum of the row's q entries.
-/
import Idealize.ShloMosaic.Lib.ValueIdx
import Idealize.ShloMosaic.PureOps.Ideal.Laws

noncomputable section

open scoped BigOperators

namespace HostReads

open Idealize.ShloMosaic Idealize.ShloMosaic.ValueIdx

/-- The host's division at an entry. -/
theorem hostDivf_apply {s : Shape} (x y : FVec Ideal s .f32) (i : s.Idx) :
    Host.divf (F := Ideal) (φ := .f32) x y i = Ideal.div (x i) (y i) := rfl

/-- The host's sum along the rows at row e: the initial value plus the sum of the row's entries. -/
theorem hostRowSum_apply {m q : Nat} (h' : (⟨2, ![m, q]⟩ : Shape).ReducesTo [1] ⟨1, ![m]⟩)
    (h : (⟨2, ![m, q]⟩ : Shape).Reduces [1] ⟨1, ![m]⟩) (hu : 0 < (⟨0, ![]⟩ : Shape).numel)
    (X : (⟨2, ![m, q]⟩ : Shape).Idx → EReal) (z : (⟨0, ![]⟩ : Shape).Idx → EReal) (e : Fin m) :
    Host.reduceAdd (F := Ideal) (φ := .f32) X z h' hu (ix1 e) = z (Shape.Idx.first hu) + ∑ k : Fin q, X (ix2 e k) := by
  simp only [Host.reduceAdd, Ideal.hostReduceAdd_def]
  rw [Ideal.hostReduceAdd_single h' h]
  refine congrArg (_ + ·) ?_
  show ∑ k : Fin q, X (h.lift (ix1 e) k) = ∑ k : Fin q, X (ix2 e k)
  refine Finset.sum_congr rfl fun k _ => congrArg X (funext fun a => Fin.ext ?_)
  match a with
  | ⟨0, _⟩ => rfl
  | ⟨1, _⟩ => rfl

end HostReads

end
-- ==== Proof.HostChains.lean ====
/-
  The two host chains that both programs apply to the weights and to the noise, read at an entry.

  The demodulation coefficient: the weight times the style vector repeated along the rows, squared, summed along each
  row from the zero pattern, plus ε everywhere, then the reciprocal square root.  At output o this is
  rsqrt ((0-pattern + Σⱼ (W[o,j]·w[j])·(W[o,j]·w[j])) + ε).
  The noise: the raw noise row times the strength repeated along it; at column o this is nr[0,o]·ns[0].
-/
import proofs.«172811_j9766755631183_2_alg».proof.Proof.Spec
import proofs.«172811_j9766755631183_2_alg».proof.Proof.LibBroadcasts
import proofs.«172811_j9766755631183_2_alg».proof.Proof.LibHostReads
import Idealize.ShloMosaic.Lib.ValueIdx
import Idealize.ShloMosaic.Lib.Pipeline.Value
import Idealize.ShloMosaic.PureOps.Ideal.Laws

noncomputable section

open scoped BigOperators

namespace ModLinear

open Idealize.ShloMosaic Idealize.ShloMosaic.ValueIdx

abbrev S0 : Shape := ⟨0, ![]⟩
abbrev S11 : Shape := ⟨2, ![1, 1]⟩

/-- The style vector repeated along the rows of the weight: entry (o, j) is w[j]. -/
theorem styleRows_apply (h1 : SV.BroadcastsInDim SN (![1] : Fin 1 → Fin 2)) (h2 : SN.BroadcastsInDim SW (![0, 1] : Fin 2 → Fin 2))
    (w : SV.Idx → EReal) (o j : Fin 1024) :
    broadcastInDim SW ![0, 1] h2 (broadcastInDim SN ![1] h1 w) (ix2 o j) = w (ix1 j) :=
  (Broadcasts.repeat_apply h2 _ o j).trans (Broadcasts.row_apply h1 w j)

/-- The demodulation chain at output o. -/
theorem demod_chain (h1 : SV.BroadcastsInDim SN (![1] : Fin 1 → Fin 2)) (h2 : SN.BroadcastsInDim SW (![0, 1] : Fin 2 → Fin 2))
    (h3 : SW.ReducesTo [1] SV) (h4 : 0 < S0.numel) (h5 : S0.BroadcastsInDim SV (![] : Fin 0 → Fin 1))
    (W : FVec Ideal SW .f32) (w : FVec Ideal SV .f32) (o : Fin 1024) :
    Host.rsqrt (F := Ideal) (addf
        (Host.reduceAdd (F := Ideal)
          (mulf (mulf W (broadcastInDim SW ![0, 1] h2 (broadcastInDim SN ![1] h1 w)))
                (mulf W (broadcastInDim SW ![0, 1] h2 (broadcastInDim SN ![1] h1 w))))
          (constant (F := Ideal) S0 .f32 0x00000000#32) h3 h4)
        (broadcastInDim SV ![] h5 (constant (F := Ideal) S0 .f32 0x322BCC77#32))) (ix1 o)
      = demod W w o := by
  show Ideal.rsqrt (Host.reduceAdd (F := Ideal) _ _ h3 h4 (ix1 o) + broadcastInDim SV (![] : Fin 0 → Fin 1) h5 (constant (F := Ideal) S0 .f32 0x322BCC77#32) (ix1 o)) = _
  have h3r : SW.Reduces [1] SV := let ⟨h, hb⟩ := h3; ⟨h, Nat.one_pos, hb⟩
  rw [HostReads.hostRowSum_apply h3 h3r h4, Broadcasts.scalar_apply]
  unfold demod sumsq eps zero32
  refine congrArg Ideal.rsqrt (congrArg₂ (· + ·) (congrArg₂ (· + ·) rfl (Finset.sum_congr rfl fun j _ => ?_)) rfl)
  show W (ix2 o j) * _ * (W (ix2 o j) * _) = _
  rw [styleRows_apply h1 h2 w o j]

/-- The noise chain at column o. -/
theorem noise_chain (h6 : S1.BroadcastsInDim S11 (![1] : Fin 1 → Fin 2)) (h7 : S11.BroadcastsInDim SN (![0, 1] : Fin 2 → Fin 2))
    (ns : FVec Ideal S1 .f32) (nr : FVec Ideal SN .f32) (o : Fin 1024) :
    mulf nr (broadcastInDim SN ![0, 1] h7 (broadcastInDim S11 ![1] h6 ns)) (ix2 (0 : Fin 1) o) = noise ns nr o := by
  show nr (ix2 (0 : Fin 1) o) * broadcastInDim SN ![0, 1] h7 (broadcastInDim S11 ![1] h6 ns) (ix2 (0 : Fin 1) o) = _
  unfold noise
  refine congrArg (nr (ix2 (0 : Fin 1) o) * ·) ?_
  refine (broadcastInDim_apply _ h7 _ _ (ix2 (0 : Fin 1) (0 : Fin 1)) (fun a => match a with
    | ⟨0, _⟩ => rfl
    | ⟨1, _⟩ => rfl)).trans ?_
  exact broadcastInDim_apply _ h6 ns _ (ix1 (0 : Fin 1)) (fun a => match a with
    | ⟨0, _⟩ => rfl)

end ModLinear

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.KernelHost.lean ====
/-
  The four arrays the host computes before the kernel is launched, as the kernel finds them, and each read at an entry.

  The first weight is W itself (a change of float format is the identity at the ideal values).  The folded weight has
  at (o, j) the entry (demod o · W[o,j]) · w[j]: the demodulation coefficient as a column repeated along the rows,
  times W, times the style vector repeated along the rows.  The bias row is b seen as one row.  The noise-plus-bias
  row has at column o the entry nr[0,o]·ns[0] + b[o].
-/
import proofs.«172811_j9766755631183_2_alg».proof.Proof.Gen.KernelIdeal.Frame
import proofs.«172811_j9766755631183_2_alg».proof.Proof.Spec
import proofs.«172811_j9766755631183_2_alg».proof.Proof.HostChains
import proofs.«172811_j9766755631183_2_alg».proof.Proof.LibBroadcasts
import proofs.«172811_j9766755631183_2_alg».proof.Proof.LibUnitReshapes
import Idealize.ShloMosaic.Lib.StableHlo.Run

noncomputable section

open scoped BigOperators

namespace Cert.KernelIdeal.Entry

open Cert.KernelIdeal Cert.KernelIdeal.Gen Idealize.ShloMosaic Idealize.ShloMosaic.TcCoe Idealize.ShloMosaic.ValueIdx
  Idealize.SL.Sem ModLinear

/-- The demodulation coefficients as the host computes them. -/
def demodVec (W : FVec Ideal S1024x1024 .f32) (w : FVec Ideal S1024 .f32) : FVec Ideal S1024 .f32 :=
  Host.rsqrt (F := Ideal) (addf
    (Host.reduceAdd (F := Ideal)
      (mulf (mulf W (broadcastInDim S1024x1024 ![0, 1] bcast_S1x1024_S1024x1024_0_1 (broadcastInDim S1x1024 ![1] bcast_S1024_S1x1024_1 w)))
            (mulf W (broadcastInDim S1024x1024 ![0, 1] bcast_S1x1024_S1024x1024_0_1 (broadcastInDim S1x1024 ![1] bcast_S1024_S1x1024_1 w))))
      (constant (F := Ideal) S_ .f32 0x00000000#32) reducesTo_S1024x1024_S1024_d1 h_S_)
    (broadcastInDim S1024 ![] bcast_S_S1024 (constant (F := Ideal) S_ .f32 0x322BCC77#32)))

/-- The folded weight as the host computes it. -/
def foldedW (W : FVec Ideal S1024x1024 .f32) (w : FVec Ideal S1024 .f32) : FVec Ideal S1024x1024 .f32 :=
  mulf (mulf (broadcastInDim S1024x1024 ![0, 1] bcast_S1024x1_S1024x1024_0_1 (broadcastInDim S1024x1 ![0] bcast_S1024_S1024x1_0 (demodVec W w))) W)
    (broadcastInDim S1024x1024 ![0, 1] bcast_S1x1024_S1024x1024_0_1 (broadcastInDim S1x1024 ![1] bcast_S1024_S1x1024_1 w))

/-- The noise-plus-bias row as the host computes it. -/
def noiseBias (b : FVec Ideal S1024 .f32) (ns : FVec Ideal S1 .f32) (nr : FVec Ideal S1x1024 .f32) : FVec Ideal S1x1024 .f32 :=
  addf (mulf nr (broadcastInDim S1x1024 ![0, 1] bcast_S1x1_S1x1024_0_1 (broadcastInDim S1x1 ![1] bcast_S1_S1x1_1 ns)))
    (broadcastInDim S1x1024 ![1] bcast_S1024_S1x1024_1 b)

theorem foldedW_apply (W : FVec Ideal S1024x1024 .f32) (w : FVec Ideal S1024 .f32) (o j : Fin 1024) :
    foldedW W w (ix2 o j) = (demod W w o * W (ix2 o j)) * w (ix1 j) := by
  show (broadcastInDim S1024x1024 ![0, 1] bcast_S1024x1_S1024x1024_0_1 (broadcastInDim S1024x1 ![0] bcast_S1024_S1024x1_0 (demodVec W w)) (ix2 o j)
      * W (ix2 o j)) * broadcastInDim S1024x1024 ![0, 1] bcast_S1x1024_S1024x1024_0_1 (broadcastInDim S1x1024 ![1] bcast_S1024_S1x1024_1 w) (ix2 o j) = _
  rw [Broadcasts.widen_apply, Broadcasts.column_apply, styleRows_apply]
  exact congrArg (fun d => d * W (ix2 o j) * w (ix1 j)) (demod_chain _ _ _ _ _ W w o)

theorem noiseBias_apply (b : FVec Ideal S1024 .f32) (ns : FVec Ideal S1 .f32) (nr : FVec Ideal S1x1024 .f32) (o : Fin 1024) :
    noiseBias b ns nr (ix2 (0 : Fin 1) o) = noise ns nr o + b (ix1 o) := by
  show mulf nr _ (ix2 (0 : Fin 1) o) + broadcastInDim S1x1024 ![1] bcast_S1024_S1x1024_1 b (ix2 (0 : Fin 1) o) = _
  rw [noise_chain, Broadcasts.row_apply]

variable (m : (ℓ : Loc nD τ sig) → Buf (Elt Ideal) ℓ)

/-- The first weight, as the kernel finds it. -/
theorem found_W (c : Dev nD) :
    (V m c main_v0 : S1024x1024.Idx → EReal) = (m ((c : Thread nD τ).loc main_arg2) : S1024x1024.Idx → EReal) := by
  dsimp only [Gen.V, Gen.hostOps0]; after_results; rfl

/-- The folded weight, as the kernel finds it. -/
theorem found_foldedW (c : Dev nD) :
    (V m c main_v15 : S1024x1024.Idx → EReal) = foldedW (m ((c : Thread nD τ).loc main_arg2)) (m ((c : Thread nD τ).loc main_arg1)) := by
  dsimp only [Gen.V, Gen.hostOps0]; after_results; rfl

/-- The bias row, as the kernel finds it. -/
theorem found_biasRow (c : Dev nD) :
    (V m c main_v16 : S1x1024.Idx → EReal) = shapeCast S1x1024 (m ((c : Thread nD τ).loc main_arg3) : S1024.Idx → EReal) shapeCasts_S1024_S1x1024 := by
  dsimp only [Gen.V, Gen.hostOps0]; after_results; rfl

/-- The noise-plus-bias row, as the kernel finds it. -/
theorem found_noiseBias (c : Dev nD) :
    (V m c main_v21 : S1x1024.Idx → EReal)
      = noiseBias (m ((c : Thread nD τ).loc main_arg3)) (m ((c : Thread nD τ).loc main_arg4)) (m ((c : Thread nD τ).loc main_arg5)) := by
  dsimp only [Gen.V, Gen.hostOps0]; after_results; rfl

end Cert.KernelIdeal.Entry

end
-- ==== Proof.KernelFinal.lean ====
/-
  From the blocks to the whole array: after the run the kernel's result array is the weight-folded arrangement of the
  six arguments, entry by entry.

  The grid has 64 points; point t takes rows 1024·t … 1024·t + 1023 of x and writes the same rows of the result; the two
  weights and the two rows are the same whole arrays at every point.  So at point t the body's stored value at (p, q)
  is the arrangement at entry (1024·t + p, q), which is what block t of the whole-array function holds there; the 64
  blocks cover the array (row r lies in block r / 1024).
-/
import proofs.«172811_j9766755631183_2_alg».proof.Proof.Gen.KernelIdeal.Value
import proofs.«172811_j9766755631183_2_alg».proof.Proof.KernelEntry
import proofs.«172811_j9766755631183_2_alg».proof.Proof.KernelHost
import proofs.«172811_j9766755631183_2_alg».proof.Proof.Spec
import proofs.«172811_j9766755631183_2_alg».proof.Proof.LibUnitReshapes

noncomputable section

open scoped BigOperators

namespace Cert.KernelIdeal.Entry

open Cert.KernelIdeal Cert.KernelIdeal.Gen Idealize.ShloMosaic Idealize.ShloMosaic.TcCoe Idealize.ShloMosaic.ValueIdx
  Idealize.SL.Sem ModLinear
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 points: x and the result move down one block of rows per point; the other four
    windows stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 1024·t + p of the array. -/
def rowOf (t : Fin cfg0.N) (p : Fin 1024) : Fin 65536 :=
  ⟨t.val * 1024 + p.val, by have h : t.val < 64 := lt_of_lt_of_eq t.isLt N_0; have := p.isLt; omega⟩

/-- The block of x at point t. -/
theorem read_x (c : Dev nD) (t : Fin cfg0.N) (p k : Fin 1024) :
    iblk m c 0 t (ix2 p k) = (m ((c : Thread nD τ).loc main_arg0) : S65536x1024.Idx → EReal) (ix2 (rowOf t p) k) := by
  obtain ⟨e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The block of the first weight at any point is the weight. -/
theorem read_W (c : Dev nD) (t : Fin cfg0.N) (j k : Fin 1024) :
    iblk m c 1 t (ix2 j k) = (m ((c : Thread nD τ).loc main_arg2) : S1024x1024.Idx → EReal) (ix2 j k) := by
  obtain ⟨-, -, e0, e1, -⟩ := index_maps t
  show V m c main_v0 (((cfg0.win 1).blk t).view.emb (ix2 j k)) = _
  rw [found_W]
  refine congrArg _ (funext fun a => Fin.ext ?_)
  match a with
  | ⟨0, _⟩ => show win0_1.index t (0 : Fin 2) * 1024 + 1 * j.val = j.val; omega
  | ⟨1, _⟩ => show win0_1.index t (1 : Fin 2) * 1024 + 1 * k.val = k.val; omega

/-- The block of the folded weight at any point, read at (q, j). -/
theorem read_foldedW (c : Dev nD) (t : Fin cfg0.N) (q j : Fin 1024) :
    iblk m c 2 t (ix2 q j)
      = (demod (m ((c : Thread nD τ).loc main_arg2)) (m ((c : Thread nD τ).loc main_arg1)) q
          * (m ((c : Thread nD τ).loc main_arg2) : S1024x1024.Idx → EReal) (ix2 q j))
        * (m ((c : Thread nD τ).loc main_arg1) : S1024.Idx → EReal) (ix1 j) := by
  obtain ⟨-, -, -, -, e0, e1, -⟩ := index_maps t
  show V m c main_v15 (((cfg0.win 2).blk t).view.emb (ix2 q j)) = _
  rw [found_foldedW, ← foldedW_apply]
  refine congrArg _ (funext fun a => Fin.ext ?_)
  match a with
  | ⟨0, _⟩ => show win0_2.index t (0 : Fin 2) * 1024 + 1 * q.val = q.val; omega
  | ⟨1, _⟩ => show win0_2.index t (1 : Fin 2) * 1024 + 1 * j.val = j.val; omega

/-- The block of the bias row at any point, read at (0, j). -/
theorem read_biasRow (c : Dev nD) (t : Fin cfg0.N) (j : Fin 1024) :
    iblk m c 3 t (ix2 (0 : Fin 1) j) = (m ((c : Thread nD τ).loc main_arg3) : S1024.Idx → EReal) (ix1 j) := by
  obtain ⟨-, -, -, -, -, -, e0, e1, -⟩ := index_maps t
  show V m c main_v16 (((cfg0.win 3).blk t).view.emb (ix2 (0 : Fin 1) j)) = _
  rw [found_biasRow]
  refine Eq.trans (congrArg _ (funext fun a => Fin.ext ?_)) (UnitReshapes.asRow_apply shapeCasts_S1024_S1x1024 _ j)
  match a with
  | ⟨0, _⟩ => show win0_3.index t (0 : Fin 2) * 1 + 1 * 0 = 0; omega
  | ⟨1, _⟩ => show win0_3.index t (1 : Fin 2) * 1024 + 1 * j.val = j.val; omega

/-- The block of the noise-plus-bias row at any point, read at (0, q). -/
theorem read_noiseBias (c : Dev nD) (t : Fin cfg0.N) (q : Fin 1024) :
    iblk m c 4 t (ix2 (0 : Fin 1) q)
      = noise (m ((c : Thread nD τ).loc main_arg4)) (m ((c : Thread nD τ).loc main_arg5)) q
        + (m ((c : Thread nD τ).loc main_arg3) : S1024.Idx → EReal) (ix1 q) := by
  obtain ⟨-, -, -, -, -, -, -, -, e0, e1, -⟩ := index_maps t
  show V m c main_v21 (((cfg0.win 4).blk t).view.emb (ix2 (0 : Fin 1) q)) = _
  rw [found_noiseBias, ← noiseBias_apply]
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- The whole-array function of the launch contents of the six arguments. -/
def result (c : Dev nD) : S65536x1024.Idx → EReal :=
  folded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back is block t of that function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S1024x1024) zero_offsets, View.ld_unit_zero (S := S1x1024) zero_offsets]
  obtain ⟨-, -, -, -, -, -, -, -, -, -, e0, e1⟩ := index_maps t
  funext y
  have hy : (y : S1024x1024.Idx) = ix2 (y 0) (y 1) := eq_ix2 y
  have hemb : ((cfg0.win 5).blk t).view.emb y = (ix2 (rowOf t (y 0)) (y 1) : S65536x1024.Idx) := by
    funext a; apply Fin.ext
    match a with
    | ⟨0, _⟩ => show win0_5.index t (0 : Fin 2) * 1024 + 1 * (y 0).val = t.val * 1024 + (y 0).val; omega
    | ⟨1, _⟩ => show win0_5.index t (1 : Fin 2) * 1024 + 1 * (y 1).val = (y 1).val; omega
  show k0_pay1 (F := Ideal) (iblk m c 0 t) (iblk m c 1 t) (iblk m c 2 t) (iblk m c 3 t) (iblk m c 4 t) y
      = result m c (((cfg0.win 5).blk t).view.emb y)
  rw [hemb, hy]
  exact block_value _ _ _ _ _ _ (iblk m c 0 t) (iblk m c 1 t) (iblk m c 2 t) (iblk m c 3 t) (iblk m c 4 t)
    (rowOf t (y 0)) (y 0) (y 1) (read_x m c t (y 0)) (read_W m c t) (read_foldedW m c t (y 1)) (read_biasRow m c t)
    (read_noiseBias m c t (y 1))

/-- An index is in block t iff its coordinates are in the block's ranges. -/
theorem mem_block (t : Fin cfg0.N) (i : S65536x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v22).slice (win0_5.rect t)).set ↔ _
  rw [View.set_slice_whole, Rect.mem_set_unit]
  exact Iff.rfl

/-- The 64 blocks cover the array. -/
theorem cover (i : S65536x1024.Idx) : ∃ t : Fin cfg0.N, (cfg0.win 5).flush t = true ∧ i ∈ ((cfg0.win 5).blk t).view.set := by
  have hi0 : (i 0).val < 65536 := (i 0).isLt
  have hi1 : (i 1).val < 1024 := (i 1).isLt
  have hN : cfg0.N = 64 := N_0
  refine ⟨⟨(i 0).val / 1024, by rw [hN]; omega⟩, flush0_5 _, ?_⟩
  rw [mem_block]
  obtain ⟨-, -, -, -, -, -, -, -, -, -, e0, e1⟩ := index_maps ⟨(i 0).val / 1024, by rw [hN]; omega⟩
  intro a
  match a with
  | ⟨0, _⟩ => show win0_5.index _ (0 : Fin 2) * 1024 ≤ (i 0).val ∧ (i 0).val < win0_5.index _ (0 : Fin 2) * 1024 + 1024; rw [e0]; show (i 0).val / 1024 * 1024 ≤ (i 0).val ∧ (i 0).val < (i 0).val / 1024 * 1024 + 1024; omega
  | ⟨1, _⟩ => show win0_5.index _ (1 : Fin 2) * 1024 ≤ (i 1).val ∧ (i 1).val < win0_5.index _ (1 : Fin 2) * 1024 + 1024; rw [e1]; omega

/-- The result array after the run. -/
theorem final (c : Dev nD) : (dats m 0 c).arrAt 5 cfg0.N = result m c :=
  (dats m 0 c).arrAt_eq_of_cover 5 (result m c) (fun t _ => flushed_eq m c t) cover

/-- The kernel's run: the result array is the weight-folded arrangement of the arguments, which end unchanged. -/
theorem run : θ_run (defs (F := Ideal)) (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h c => ⟨(h c).1.trans (final m c), (h c).2⟩) (Value.run_blocks m ρ)

end Cert.KernelIdeal.Entry

end
-- ==== Proof.RefRun.lean ====
/-
  The reference program's run, read back as one composed term of its six arguments.

  The program is a straight line of 39 array operations: 32 of its own and, inlined where it calls them, the six of the
  leaky rectifier and the one selection that rectifier calls.  Listed in order, its run from any memory ends with
  the result array at the operations' composition applied to the arguments' initial contents, and the arguments
  unchanged.  The composition is named in four pieces: the plain layer, the demodulation vector, the noise row, and
  the value before the rectifier.
-/
import proofs.«172811_j9766755631183_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

section Terms

variable (x : FVec F S65536x1024 .f32) (w : FVec F S1024 .f32) (W : FVec F S1024x1024 .f32) (b : FVec F S1024 .f32)
  (ns : FVec F S1 .f32) (nr : FVec F S1x1024 .f32)

/-- A vector of 1024 entries repeated as the 65536 rows of an array. -/
def rows (v : FVec F S1024 .f32) : FVec F S65536x1024 .f32 :=
  broadcastInDim S65536x1024 ![0, 1] bcast_S1x1024_S65536x1024_0_1 (broadcastInDim S1x1024 ![1] bcast_S1024_S1x1024_1 v)

/-- The plain layer: x against the transposed weight, plus the bias on every row. -/
def tDense : FVec F S65536x1024 .f32 :=
  addf (Host.dotGeneral dot_S65536x1024_S1024x1024_S65536x1024_1_0_0_1_n_n none x (transpose S1024x1024 [1, 0] W transposes_S1024x1024_S1024x1024_1_0)) (rows b)

/-- The weight with every row multiplied entrywise by the style vector. -/
def tMod : FVec F S1024x1024 .f32 :=
  mulf W (broadcastInDim S1024x1024 ![0, 1] bcast_S1x1024_S1024x1024_0_1 (broadcastInDim S1x1024 ![1] bcast_S1024_S1x1024_1 w))

/-- The demodulation vector: the reciprocal square root of each row's sum of squares plus ε. -/
def tDemod : FVec F S1024 .f32 :=
  Host.rsqrt (addf (Host.reduceAdd (mulf (tMod w W) (tMod w W)) (constant S_ .f32 0x00000000#32) reducesTo_S1024x1024_S1024_d1 h_S_)
    (broadcastInDim S1024 ![] bcast_S_S1024 (constant S_ .f32 0x322BCC77#32)))

/-- The noise row: the raw noise times the strength. -/
def tNoise : FVec F S1x1024 .f32 :=
  mulf nr (broadcastInDim S1x1024 ![0, 1] bcast_S1x1_S1x1024_0_1 (broadcastInDim S1x1 ![1] bcast_S1_S1x1_1 ns))

/-- The value before the rectifier. -/
def tPre : FVec F S65536x1024 .f32 :=
  addf (addf (mulf (Host.dotGeneral dot_S65536x1024_S1024x1024_S65536x1024_1_0_0_1_n_n none (mulf (tDense x W b) (rows w)) (transpose S1024x1024 [1, 0] W transposes_S1024x1024_S1024x1024_1_0))
      (rows (tDemod w W)))
    (broadcastInDim S65536x1024 ![0, 1] bcast_S1x1024_S65536x1024_0_1 (tNoise ns nr))) (rows b)

/-- The leaky rectifier over a whole array: the entry where it is at least zero, the slope times it elsewhere. -/
def tLeaky (y : FVec F S65536x1024 .f32) : FVec F S65536x1024 .f32 :=
  select (cmpf .oge y (broadcastInDim S65536x1024 ![] bcast_S_S65536x1024 (constant S_ .f32 0x00000000#32))) y
    (mulf (broadcastInDim S65536x1024 ![] bcast_S_S65536x1024 (constant S_ .f32 0x3C23D70A#32)) y)

/-- The program's result as a term of its arguments. -/
def tOut : FVec F S65536x1024 .f32 := tLeaky (tPre x w W b ns nr)

end Terms

/-! ## The run -/

/-- The 39 operations, in order, the two called functions' operations at the call. -/
abbrev ops : List (HloOp τ sig (Elt F)) :=
  [ unary main_arg2 main_v0 ((transpose S1024x1024 [1, 0] · transposes_S1024x1024_S1024x1024_1_0) : (⟨S1024x1024, .f32⟩ : BufTy).Contents (Elt F) → (⟨S1024x1024, .f32⟩ : BufTy).Contents (Elt F)),
    binary main_arg0 main_v0 main_v1 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg3 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S65536x1024 ![0, 1] bcast_S1x1024_S65536x1024_0_1 : (⟨S1x1024, .f32⟩ : BufTy).Contents (Elt F) → (⟨S65536x1024, .f32⟩ : BufTy).Contents (Elt F)),
    binary main_v1 main_v3 main_v4 (addf : (⟨S65536x1024, .f32⟩ : BufTy).Contents (Elt F) → (⟨S65536x1024, .f32⟩ : BufTy).Contents (Elt F) → (⟨S65536x1024, .f32⟩ : BufTy).Contents (Elt F)),
    unary main_arg1 main_v5 (broadcastInDim S1x1024 ![1] bcast_S1024_S1x1024_1 : (⟨S1024, .f32⟩ : BufTy).Contents (Elt F) → (⟨S1x1024, .f32⟩ : BufTy).Contents (Elt F)),
    unary main_v5 main_v6 (broadcastInDim S1024x1024 ![0, 1] bcast_S1x1024_S1024x1024_0_1 : (⟨S1x1024, .f32⟩ : BufTy).Contents (Elt F) → (⟨S1024x1024, .f32⟩ : BufTy).Contents (Elt F)),
    binary main_arg2 main_v6 main_v7 (mulf : (⟨S1024x1024, .f32⟩ : BufTy).Contents (Elt F) → (⟨S1024x1024, .f32⟩ : BufTy).Contents (Elt F) → (⟨S1024x1024, .f32⟩ : BufTy).Contents (Elt F)),
    binary main_v7 main_v7 main_v8 (mulf : (⟨S1024x1024, .f32⟩ : BufTy).Contents (Elt F) → (⟨S1024x1024, .f32⟩ : BufTy).Contents (Elt F) → (⟨S1024x1024, .f32⟩ : BufTy).Contents (Elt F)),
    nullary main_cst (constant S_ .f32 0x00000000#32),
    binary main_v8 main_cst main_v9 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    nullary main_cst_0 (constant S_ .f32 0x322BCC77#32),
    unary main_cst_0 main_v10 (broadcastInDim S1024 ![] bcast_S_S1024 : (⟨S_, .f32⟩ : BufTy).Contents (Elt F) → (⟨S1024, .f32⟩ : BufTy).Contents (Elt F)),
    binary main_v9 main_v10 main_v11 (addf : (⟨S1024, .f32⟩ : BufTy).Contents (Elt F) → (⟨S1024, .f32⟩ : BufTy).Contents (Elt F) → (⟨S1024, .f32⟩ : BufTy).Contents (Elt F)),
    unary main_v11 main_v12 (Host.rsqrt : (⟨S1024, .f32⟩ : BufTy).Contents (Elt F) → (⟨S1024, .f32⟩ : BufTy).Contents (Elt F)),
    unary main_arg1 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S65536x1024 ![0, 1] bcast_S1x1024_S65536x1024_0_1 : (⟨S1x1024, .f32⟩ : BufTy).Contents (Elt F) → (⟨S65536x1024, .f32⟩ : BufTy).Contents (Elt F)),
    binary main_v4 main_v14 main_v15 (mulf : (⟨S65536x1024, .f32⟩ : BufTy).Contents (Elt F) → (⟨S65536x1024, .f32⟩ : BufTy).Contents (Elt F) → (⟨S65536x1024, .f32⟩ : BufTy).Contents (Elt F)),
    unary main_arg2 main_v16 ((transpose S1024x1024 [1, 0] · transposes_S1024x1024_S1024x1024_1_0) : (⟨S1024x1024, .f32⟩ : BufTy).Contents (Elt F) → (⟨S1024x1024, .f32⟩ : BufTy).Contents (Elt F)),
    binary main_v15 main_v16 main_v17 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg4 main_v18 (broadcastInDim S1x1 ![1] bcast_S1_S1x1_1 : (⟨S1, .f32⟩ : BufTy).Contents (Elt F) → (⟨S1x1, .f32⟩ : BufTy).Contents (Elt F)),
    unary main_v18 main_v19 (broadcastInDim S1x1024 ![0, 1] bcast_S1x1_S1x1024_0_1 : (⟨S1x1, .f32⟩ : BufTy).Contents (Elt F) → (⟨S1x1024, .f32⟩ : BufTy).Contents (Elt F)),
    binary main_arg5 main_v19 main_v20 (mulf : (⟨S1x1024, .f32⟩ : BufTy).Contents (Elt F) → (⟨S1x1024, .f32⟩ : BufTy).Contents (Elt F) → (⟨S1x1024, .f32⟩ : BufTy).Contents (Elt F)),
    unary main_v12 main_v21 (broadcastInDim S1x1024 ![1] bcast_S1024_S1x1024_1 : (⟨S1024, .f32⟩ : BufTy).Contents (Elt F) → (⟨S1x1024, .f32⟩ : BufTy).Contents (Elt F)),
    unary main_v21 main_v22 (broadcastInDim S65536x1024 ![0, 1] bcast_S1x1024_S65536x1024_0_1 : (⟨S1x1024, .f32⟩ : BufTy).Contents (Elt F) → (⟨S65536x1024, .f32⟩ : BufTy).Contents (Elt F)),
    binary main_v17 main_v22 main_v23 (mulf : (⟨S65536x1024, .f32⟩ : BufTy).Contents (Elt F) → (⟨S65536x1024, .f32⟩ : BufTy).Contents (Elt F) → (⟨S65536x1024, .f32⟩ : BufTy).Contents (Elt F)),
    unary main_v20 main_v24 (broadcastInDim S65536x1024 ![0, 1] bcast_S1x1024_S65536x1024_0_1 : (⟨S1x1024, .f32⟩ : BufTy).Contents (Elt F) → (⟨S65536x1024, .f32⟩ : BufTy).Contents (Elt F)),
    binary main_v23 main_v24 main_v25 (addf : (⟨S65536x1024, .f32⟩ : BufTy).Contents (Elt F) → (⟨S65536x1024, .f32⟩ : BufTy).Contents (Elt F) → (⟨S65536x1024, .f32⟩ : BufTy).Contents (Elt F)),
    unary main_arg3 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S65536x1024 ![0, 1] bcast_S1x1024_S65536x1024_0_1 : (⟨S1x1024, .f32⟩ : BufTy).Contents (Elt F) → (⟨S65536x1024, .f32⟩ : BufTy).Contents (Elt F)),
    binary main_v25 main_v27 main_v28 (addf : (⟨S65536x1024, .f32⟩ : BufTy).Contents (Elt F) → (⟨S65536x1024, .f32⟩ : BufTy).Contents (Elt F) → (⟨S65536x1024, .f32⟩ : BufTy).Contents (Elt F)),
    nullary main_cst_1 (constant S_ .f32 0x3C23D70A#32),
    TRef.nullary main_call0.cst (constant S_ .f32 0x00000000#32),
    TRef.unary main_call0.cst main_call0.v0 (broadcastInDim S65536x1024 ![] bcast_S_S65536x1024),
    TRef.binary (.of main_v28) main_call0.v0 main_call0.v1 (cmpf .oge),
    TRef.unary (.of main_cst_1) main_call0.v2 id,
    TRef.unary main_call0.v2 main_call0.v3 (broadcastInDim S65536x1024 ![] bcast_S_S65536x1024),
    TRef.binary main_call0.v3 (.of main_v28) main_call0.v4 mulf,
    TRef.ternary main_call0.v1 (.of main_v28) main_call0.v4 main_call0.call0.v0 select ]

set_option maxRecDepth 8192 in
/-- The program is that straight line: the called functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
set_option maxHeartbeats 2000000 in
/-- On every device, for any float values, from any memory with zero counters: every weakly fair execution of the
    program terminates with the result array at the composed term of the arguments' initial contents and the six
    arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = tOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v29).trans (by
        after_results_simp
        unfold tOut tLeaky tPre tDense tDemod tMod tNoise rows
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.RefRead.lean ====
/-
  The reference's composed term, read at an entry on the extended reals: it is the modulated layer with the input
  modulated and the output scaled.

  Every operation of the term is read at one index.  A product of two arrays against a transposed weight is, at entry
  (n, o), the sum over the shared index k of the left array at (n, k) times the weight at (o, k); a vector repeated along
  the rows reads its entry at the column; the demodulation and noise chains are read by their own lemmas; the rectifier
  is a selection on a comparison with the zero pattern.  With the run of the program this gives the result array as
  that function of the six arguments.
-/
import proofs.«172811_j9766755631183_2_alg».proof.Proof.RefRun
import proofs.«172811_j9766755631183_2_alg».proof.Proof.Spec
import proofs.«172811_j9766755631183_2_alg».proof.Proof.HostChains
import proofs.«172811_j9766755631183_2_alg».proof.Proof.LibBroadcasts
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The contraction at an entry -/

/-- The left operand's row coordinate is the output's. -/
theorem lhs_row (i : S65536x1024.Idx) (q : dot_S65536x1024_S1024x1024_S65536x1024_1_0_0_1_n_n.contr.Idx) :
    (dot_S65536x1024_S1024x1024_S65536x1024_1_0_0_1_n_n.lhsIdx i q 0).val = (i 0).val := by
  unfold DotDims.lhsIdx
  rw [dif_neg (show ¬(0 : Fin S65536x1024.rank) ∈ dot_S65536x1024_S1024x1024_S65536x1024_1_0_0_1_n_n.lhsBatch by decide),
    dif_pos (show (0 : Fin S65536x1024.rank) ∈ dot_S65536x1024_S1024x1024_S65536x1024_1_0_0_1_n_n.lhsNonContracting by decide)]
  rfl

/-- The left operand's column coordinate is the contracted index. -/
theorem lhs_col (i : S65536x1024.Idx) (q : dot_S65536x1024_S1024x1024_S65536x1024_1_0_0_1_n_n.contr.Idx) :
    (dot_S65536x1024_S1024x1024_S65536x1024_1_0_0_1_n_n.lhsIdx i q 1).val = (q ⟨0, by decide⟩).val :=
  dot_S65536x1024_S1024x1024_S65536x1024_1_0_0_1_n_n.lhsIdx_val_of_single rfl i q

/-- The right operand's row coordinate is the contracted index. -/
theorem rhs_row (i : S65536x1024.Idx) (q : dot_S65536x1024_S1024x1024_S65536x1024_1_0_0_1_n_n.contr.Idx) :
    (dot_S65536x1024_S1024x1024_S65536x1024_1_0_0_1_n_n.rhsIdx i q 0).val = (q ⟨0, by decide⟩).val :=
  dot_S65536x1024_S1024x1024_S65536x1024_1_0_0_1_n_n.rhsIdx_val_of_single rfl i q

/-- The right operand's column coordinate is the output's. -/
theorem rhs_col (i : S65536x1024.Idx) (q : dot_S65536x1024_S1024x1024_S65536x1024_1_0_0_1_n_n.contr.Idx) :
    (dot_S65536x1024_S1024x1024_S65536x1024_1_0_0_1_n_n.rhsIdx i q 1).val = (i 1).val := by
  unfold DotDims.rhsIdx
  rw [dif_neg (show ¬(1 : Fin S1024x1024.rank) ∈ dot_S65536x1024_S1024x1024_S65536x1024_1_0_0_1_n_n.rhsBatch by decide),
    dif_pos (show (1 : Fin S1024x1024.rank) ∈ dot_S65536x1024_S1024x1024_S65536x1024_1_0_0_1_n_n.rhsNonContracting by decide)]
  rfl

/-- The product of a 65536 × 1024 array with a 1024 × 1024 one at entry (n, o): the sum over k of L[n,k] · R[k,o]. -/
theorem dot_apply (L : FVec Ideal S65536x1024 .f32) (R : FVec Ideal S1024x1024 .f32) (n : Fin 65536) (o : Fin 1024) :
    Host.dotGeneral (F := Ideal) dot_S65536x1024_S1024x1024_S65536x1024_1_0_0_1_n_n none L R (ix2 n o)
      = ∑ k : Fin 1024, L (ix2 n k) * R (ix2 k o) := by
  simp only [Host.dotGeneral]
  rw [Ideal.dotGeneral_apply, ← Equiv.sum_comp (contrEquiv1 dot_S65536x1024_S1024x1024_S65536x1024_1_0_0_1_n_n 1024 rfl rfl).symm]
  refine Finset.sum_congr rfl fun k _ => ?_
  have hk := contrEquiv1_symm_val dot_S65536x1024_S1024x1024_S65536x1024_1_0_0_1_n_n 1024 rfl rfl k
  have el : dot_S65536x1024_S1024x1024_S65536x1024_1_0_0_1_n_n.lhsIdx (ix2 n o) ((contrEquiv1 dot_S65536x1024_S1024x1024_S65536x1024_1_0_0_1_n_n 1024 rfl rfl).symm k) = ix2 n k :=
    funext fun a => Fin.ext (by
      match a with
      | ⟨0, _⟩ => exact lhs_row _ _
      | ⟨1, _⟩ => exact (lhs_col _ _).trans hk)
  have er : dot_S65536x1024_S1024x1024_S65536x1024_1_0_0_1_n_n.rhsIdx (ix2 n o) ((contrEquiv1 dot_S65536x1024_S1024x1024_S65536x1024_1_0_0_1_n_n 1024 rfl rfl).symm k) = ix2 k o :=
    funext fun a => Fin.ext (by
      match a with
      | ⟨0, _⟩ => exact (rhs_row _ _).trans hk
      | ⟨1, _⟩ => exact rhs_col _ _)
  rw [el, er]

/-- The transposed weight at (k, o) is the weight at (o, k). -/
theorem transpose_ix2 (W : FVec Ideal S1024x1024 .f32) (k o : Fin 1024) :
    transpose S1024x1024 [1, 0] W transposes_S1024x1024_S1024x1024_1_0 (ix2 k o) = W (ix2 o k) :=
  transpose_apply [1, 0] W _ (ix2 k o) (ix2 o k) (fun b => match b with
    | ⟨0, _⟩ => rfl
    | ⟨1, _⟩ => rfl)

/-- A vector repeated along the rows reads, at (n, c), its entry c. -/
theorem rows_apply (v : FVec Ideal S1024 .f32) (n : Fin 65536) (c : Fin 1024) :
    rows (F := Ideal) v (ix2 n c) = v (ix1 c) :=
  (Broadcasts.repeat_apply bcast_S1x1024_S65536x1024_0_1 _ n c).trans (Broadcasts.row_apply bcast_S1024_S1x1024_1 v c)

/-! ## The pieces at an entry -/

variable (x : FVec Ideal S65536x1024 .f32) (w : FVec Ideal S1024 .f32) (W : FVec Ideal S1024x1024 .f32)
  (b : FVec Ideal S1024 .f32) (ns : FVec Ideal S1 .f32) (nr : FVec Ideal S1x1024 .f32)

/-- The plain layer at (n, j). -/
theorem dense_apply (n : Fin 65536) (j : Fin 1024) :
    tDense (F := Ideal) x W b (ix2 n j) = ModLinear.dense x W b n j := by
  unfold tDense ModLinear.dense
  show Host.dotGeneral (F := Ideal) dot_S65536x1024_S1024x1024_S65536x1024_1_0_0_1_n_n none x _ (ix2 n j) + rows (F := Ideal) b (ix2 n j) = _
  rw [dot_apply, rows_apply]
  refine congrArg (· + b (ix1 j)) (Finset.sum_congr rfl fun k _ => ?_)
  rw [transpose_ix2]

/-- The demodulation vector at o. -/
theorem demod_apply (o : Fin 1024) : tDemod (F := Ideal) w W (ix1 o) = ModLinear.demod W w o := by
  unfold tDemod tMod
  exact ModLinear.demod_chain bcast_S1024_S1x1024_1 bcast_S1x1024_S1024x1024_0_1 reducesTo_S1024x1024_S1024_d1 h_S_ bcast_S_S1024 W w o

/-- The noise row at column o. -/
theorem noise_apply (o : Fin 1024) : tNoise (F := Ideal) ns nr (ix2 (0 : Fin 1) o) = ModLinear.noise ns nr o := by
  unfold tNoise
  exact ModLinear.noise_chain bcast_S1_S1x1_1 bcast_S1x1_S1x1024_0_1 ns nr o

/-- The value before the rectifier at (n, o). -/
theorem pre_apply (n : Fin 65536) (o : Fin 1024) :
    tPre (F := Ideal) x w W b ns nr (ix2 n o)
      = (((∑ j : Fin 1024, (ModLinear.dense x W b n j * w (ix1 j)) * W (ix2 o j)) * ModLinear.demod W w o)
          + ModLinear.noise ns nr o) + b (ix1 o) := by
  unfold tPre
  show ((Host.dotGeneral (F := Ideal) dot_S65536x1024_S1024x1024_S65536x1024_1_0_0_1_n_n none _ _ (ix2 n o) * rows (F := Ideal) (tDemod w W) (ix2 n o))
      + broadcastInDim S65536x1024 ![0, 1] bcast_S1x1024_S65536x1024_0_1 (tNoise ns nr) (ix2 n o)) + rows (F := Ideal) b (ix2 n o) = _
  rw [dot_apply, rows_apply, rows_apply, Broadcasts.repeat_apply, demod_apply, noise_apply]
  refine congrArg (· + b (ix1 o)) (congrArg (· + ModLinear.noise ns nr o) (congrArg (· * ModLinear.demod W w o)
    (Finset.sum_congr rfl fun j _ => ?_)))
  show tDense (F := Ideal) x W b (ix2 n j) * rows (F := Ideal) w (ix2 n j) * _ = _
  rw [dense_apply, rows_apply, transpose_ix2]

/-- The rectifier at an entry. -/
theorem leaky_apply (y : FVec Ideal S65536x1024 .f32) (i : S65536x1024.Idx) :
    tLeaky (F := Ideal) y i = ModLinear.leaky (y i) := by
  unfold tLeaky ModLinear.leaky
  show Scalar.select (FloatOps.cmpf .oge (y i) (broadcastInDim S65536x1024 ![] bcast_S_S65536x1024 (constant (F := Ideal) S_ .f32 0x00000000#32) i)) (y i)
      (broadcastInDim S65536x1024 ![] bcast_S_S65536x1024 (constant (F := Ideal) S_ .f32 0x3C23D70A#32) i * y i) = _
  rw [Broadcasts.scalar_apply, Broadcasts.scalar_apply]
  rfl

/-- The composed term is the input-modulated arrangement of the layer. -/
theorem tOut_eq : tOut (F := Ideal) x w W b ns nr = ModLinear.scaled x w W b ns nr := by
  funext i
  obtain ⟨n, o, rfl⟩ : ∃ (n : Fin 65536) (o : Fin 1024), i = ix2 n o := ⟨i 0, i 1, eq_ix2 i⟩
  rw [ModLinear.scaled_ix2]
  unfold tOut ModLinear.scaledAt
  rw [leaky_apply, pre_apply]

/-! ## The run, with the result as that function of the arguments -/

open Idealize.ShloMosaic.TcCoe Idealize.SL.Sem in
/-- On every device, from any memory with zero counters: every weakly fair execution of the program terminates with the
    result array the input-modulated layer of the six arguments' initial contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = ModLinear.scaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨((h c).1).trans (tOut_eq _ _ _ _ _ _), (h c).2⟩) (run_term m ρ)

end Cert.ReferenceIdeal.RefValue

end
-- ==== Proof.lean ====
/-
  A plain linear layer followed by a modulated one (style-scaled input, demodulated output, noise, bias, leaky
  rectifier): the kernel against its reference, on the extended reals.

  The kernel folds the style vector and the demodulation coefficient into a second weight, and the noise and the final
  bias into one row, on the host; its body is then two products against resident weights, two row additions and the
  rectifier, block of 1024 rows by block.  The reference modulates the input of the second product and scales its
  output.  Entry by entry,

      kernel:     leaky (Σⱼ dense n j · ((demod o · W[o,j]) · w[j]) + (noise o + b[o]))
      reference:  leaky ((Σⱼ (dense n j · w[j]) · W[o,j]) · demod o + noise o + b[o])

  with dense n j = Σₖ x[n,k]·W[j,k] + b[j] on both sides.  The two agree because demod o is a non-negative real, which
  moves across the finite sum whatever the terms are; no finiteness of the inputs is used.
  The kernel's side: the stored value at an entry, the host-computed arrays as the kernel finds them, and the 64 blocks
  assembled into the whole array.  The reference's side: its operations in order, run, and the composed term read at an
  entry.  The idealized kernel is the kernel's own text read at the ideal values, so that claim is trivial.
-/
import proofs.«172811_j9766755631183_2_alg».proof.Defs
import proofs.«172811_j9766755631183_2_alg».proof.Proof.Gen.Kernel
import proofs.«172811_j9766755631183_2_alg».proof.Proof.Gen.Kernel.Skeleton
import proofs.«172811_j9766755631183_2_alg».proof.Proof.Gen.Kernel.Launch
import proofs.«172811_j9766755631183_2_alg».proof.Proof.Gen.Kernel.Points
import proofs.«172811_j9766755631183_2_alg».proof.Proof.Gen.Kernel.Frame
import proofs.«172811_j9766755631183_2_alg».proof.Proof.Gen.KernelIdeal
import proofs.«172811_j9766755631183_2_alg».proof.Proof.Gen.KernelIdeal.Skeleton
import proofs.«172811_j9766755631183_2_alg».proof.Proof.Gen.KernelIdeal.Launch
import proofs.«172811_j9766755631183_2_alg».proof.Proof.Gen.KernelIdeal.Points
import proofs.«172811_j9766755631183_2_alg».proof.Proof.Gen.KernelIdeal.Frame
import proofs.«172811_j9766755631183_2_alg».proof.Proof.Gen.KernelIdeal.Value
import proofs.«172811_j9766755631183_2_alg».proof.Proof.Gen.ReferenceIdeal
import proofs.«172811_j9766755631183_2_alg».proof.Proof.Gen.Pre_finite_inputs
import proofs.«172811_j9766755631183_2_alg».proof.Proof.Law
import proofs.«172811_j9766755631183_2_alg».proof.Proof.KernelFinal
import proofs.«172811_j9766755631183_2_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealized kernel is the kernel's own text read at the ideal values: there is nothing to preserve. -/
theorem preserves : Cert.preserves_Kernel_KernelIdeal := trivial

/-- The kernel's result array is the weight-folded arrangement of the arguments, the reference's the input-modulated one
    of arguments that agree: one function. -/
theorem algebraic : Cert.algebraic_KernelIdeal_ReferenceIdeal := by
  intro m ρ m' ρ' _ hagree
  refine ⟨fun c => Cert.KernelIdeal.Entry.result m c, Cert.KernelIdeal.Entry.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact (ModLinear.folded_eq_scaled _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
